-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x256 : Shape := ⟨3, ![1, 100000, 256]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S_ : Shape := ⟨0, ![]⟩

class Facts : Prop where
  bcast_S_S1x100000x256 : S_.BroadcastsInDim S1x100000x256 (![] : Fin 0 → Fin S1x100000x256.rank)
  reducesTo_S1x100000x256_S_d0_1_2 : S1x100000x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1x100000x256 .f32) (main_arg1 : FVec F S256x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S1x100000x256 .f32 := Host.absf main_arg0
  let main_cst : FVec F S_ .f32 := constant S_ .f32 0x7F800000#32
  let main_v1 : FVec F S1x100000x256 .f32 := broadcastInDim S1x100000x256 ![] bcast_S_S1x100000x256 main_cst
  let main_v2 : IVec S1x100000x256 1 := cmpf .olt main_v0 main_v1
  let main_c : IVec S_ 1 := constantI S_ 1 1#1
  let main_v3 : IVec S_ 1 := (fun x v => Host.reduce IntOp.andi x v reducesTo_S1x100000x256_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S1x100000x256 : Shape := ⟨3, ![1, 100000, 256]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S100000x256 : Shape := ⟨2, ![100000, 256]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩

abbrev nBuf : Space → Nat
  | .hbm => 69
  | .vmem => 24
  | .smem => 0
  | _ => 0

abbrev bufTy : (tb : Table) → Fin (tcTables nBuf tb) → BufTy
  | .hbm, ⟨0, _⟩ => ⟨S1x100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S100000x256, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x1, .f32⟩
  | .hbm, ⟨50, _⟩ => ⟨S1x128, .f32⟩
  | .hbm, ⟨51, _⟩ => ⟨S100000x128, .bf16⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .bf16⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S1x128, .f32⟩
  | .hbm, ⟨68, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S1x100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1x100000x256_S100000x256 : S1x100000x256.ShapeCasts S100000x256
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x100000x256 : Shape := ⟨3, ![1, 100000, 256]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S100000x256 : Shape := ⟨2, ![100000, 256]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S1x100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S100000x256, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x256, .f32⟩
  | .hbm, ⟨34, _⟩ => ⟨S100000x256, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | _, _ => ⟨S1x100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call2_cst : Ref sig .tc := ⟨.hbm, 55, rfl⟩
abbrev main_call2_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call3_cst : Ref sig .tc := ⟨.hbm, 81, rfl⟩
abbrev main_call3_v0 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  shapeCasts_S1x100000x256_S100000x256 : S1x100000x256.ShapeCasts S100000x256
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run with its result named.

  The program is three kernel regions among stretches of host operations. Its buffer contents at each boundary are a
  fold from the launch memory: a stretch applies its operations, a region leaves in each of its arrays what its write-backs
  leave and every other buffer as it found it. This module restates the run over those segments with a post that also reads
  the result buffer at the last boundary's contents, beside the argument buffers at their launch contents.
-/
import proofs.«155793_j19026705121765_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument buffer as launched. -/
theorem run_value : θ_run defs (onTc (τ := τ) (main (F := F))) ⟨m, fun _ => 0, ρ⟩ (fun r => ∀ c : Dev nD,
      r.2.mem ((c.tc : Thread nD τ).loc main_v44) = W10 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v44 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.KRun

end
-- ==== Proof.HostK.lean ====
/-
  The host operations of the idealized kernel program, read at the three regions' entries.

  Before the first region the program reshapes the features, counts each node's outgoing and incoming edges by scatter-adds
  of ones, clamps the counts below at one and raises them to the power -1/2: the two norm vectors. Between regions it
  gathers the projected rows along the edges' sources (negative indices wrapped once) and sums them over the edges'
  destinations, and recasts the norm vectors as columns and the bias vectors as rows. Each buffer a region reads is named
  here as a term of the launch contents of the argument buffers and of the previous region's output array. Nothing here
  depends on what a float is: the statements hold for any float operations.
-/
import proofs.«155793_j19026705121765_2_alg».proof.Proof.Gen.KernelIdeal.Frame

set_option maxRecDepth 16384

noncomputable section

namespace Cert.KernelIdeal.HostK

open Cert.KernelIdeal Cert.KernelIdeal.Gen Idealize.ShloMosaic Idealize.ShloMosaic.TcCoe Idealize.SL.Sem Idealize.ShloMosaic.StableHlo

variable {F : FTy → Type} [FloatOps F]

/-- A node's norm from the edge-endpoint vector `x`: the number of edges ending at the node, clamped below at one, to the
    power -1/2. -/
def norm (x : (⟨S1600000, .i32⟩ : BufTy).Contents (Elt F)) : (⟨S100000, .f32⟩ : BufTy).Contents (Elt F) :=
  Host.powf (maximumf (broadcastInDim S100000 ![] bcast_S_S100000 (id (constant S_ .f32 0x3F800000#32)))
    (Host.scatterAdd scatter_S100000_S1600000x1_S1600000_n_0_0_1 (broadcastInDim S100000 ![] bcast_S_S100000 (constant S_ .f32 0x00000000#32))
      (broadcastInDim S1600000x1 ![0] bcast_S1600000_S1600000x1_0 x) (broadcastInDim S1600000 ![] bcast_S_S1600000 (constant S_ .f32 0x3F800000#32))))
    (broadcastInDim S100000 ![] bcast_S_S100000 (constant S_ .f32 0xBF000000#32))

/-- The edges' sources as start indices: a negative index wrapped by 100000, one index per row. -/
def srcIdx (x5 : (⟨S1600000, .i32⟩ : BufTy).Contents (Elt F)) : (⟨S1600000x1, .i32⟩ : BufTy).Contents (Elt F) :=
  broadcastInDim S1600000x1 ![0] bcast_S1600000_S1600000x1_0
    (select (cmpi .slt x5 (broadcastInDim S1600000 ![] bcast_S_S1600000 (constantI S_ 32 0#32)))
      (addi x5 (broadcastInDim S1600000 ![] bcast_S_S1600000 (constantI S_ 32 100000#32))) x5)

/-- The edges' destinations as scatter indices, one index per row. -/
def dstIdx (x6 : (⟨S1600000, .i32⟩ : BufTy).Contents (Elt F)) : (⟨S1600000x1, .i32⟩ : BufTy).Contents (Elt F) :=
  broadcastInDim S1600000x1 ![0] bcast_S1600000_S1600000x1_0 x6

/-- The array of zeros the sums start from. -/
def zeros : (⟨S100000x128, .f32⟩ : BufTy).Contents (Elt F) :=
  broadcastInDim S100000x128 ![] bcast_S_S100000x128 (constant S_ .f32 0x00000000#32)

/-- Rows of `P` gathered along the edges' sources `x5`. -/
def take (P : (⟨S100000x128, .bf16⟩ : BufTy).Contents (Elt F)) (x5 : (⟨S1600000, .i32⟩ : BufTy).Contents (Elt F)) :
    (⟨S1600000x128, .bf16⟩ : BufTy).Contents (Elt F) :=
  Host.gather gather_S100000x128_S1600000x1_S1600000x128_1_0_n_n_0_1_1128 P (srcIdx x5)

/-- Per-edge rows `U` summed over the edges' destinations `x6`. -/
def sum (x6 : (⟨S1600000, .i32⟩ : BufTy).Contents (Elt F)) (U : (⟨S1600000x128, .f32⟩ : BufTy).Contents (Elt F)) :
    (⟨S100000x128, .f32⟩ : BufTy).Contents (Elt F) :=
  Host.scatterAdd scatter_S100000x128_S1600000x1_S1600000x128_1_0_0_1 (zeros (F := F)) (dstIdx x6) U

/-- The edge stage: gather along the sources, widen, sum over the destinations. -/
def aggr (P : (⟨S100000x128, .bf16⟩ : BufTy).Contents (Elt F)) (x5 x6 : (⟨S1600000, .i32⟩ : BufTy).Contents (Elt F)) :
    (⟨S100000x128, .f32⟩ : BufTy).Contents (Elt F) :=
  sum x6 (extf .f32 (take P x5) bitsLt_bf16_f32)

variable (m : (ℓ : Loc nD τ sig) → Buf (Elt F) ℓ) (ρ : Dev nD → PrngReg)

/-! ## At the first region's entry -/

theorem v0_at5 (c : Dev nD) : W5 m ρ c (Proc.devRef .tc main_v0)
    = shapeCast S100000x256 (m ((c : Thread nD τ).loc main_arg0)) shapeCasts_S1x100000x256_S100000x256 := by
  dsimp only [W5, W4, W3, W2, W1, W0, hostOps0, hostOps0_1, hostOps0_2, hostOps0_3, hostOps0_4]
  after_results
  rfl

theorem v10_at5 (c : Dev nD) : W5 m ρ c (Proc.devRef .tc main_v10) = norm (m ((c : Thread nD τ).loc main_arg5)) := by
  dsimp only [W5, W4, W3, W2, W1, W0, hostOps0, hostOps0_1, hostOps0_2, hostOps0_3, hostOps0_4]
  after_results
  rfl

theorem v13_at5 (c : Dev nD) : W5 m ρ c (Proc.devRef .tc main_v13) = norm (m ((c : Thread nD τ).loc main_arg6)) := by
  dsimp only [W5, W4, W3, W2, W1, W0, hostOps0, hostOps0_1, hostOps0_2, hostOps0_3, hostOps0_4]
  after_results
  rfl

theorem v14_at5 (c : Dev nD) : W5 m ρ c (Proc.devRef .tc main_v14)
    = shapeCast S100000x1 (norm (m ((c : Thread nD τ).loc main_arg5))) shapeCasts_S100000_S100000x1 := by
  dsimp only [W5, W4, W3, W2, W1, W0, hostOps0, hostOps0_1, hostOps0_2, hostOps0_3, hostOps0_4]
  after_results
  rfl

theorem arg1_at5 (c : Dev nD) : W5 m ρ c (Proc.devRef .tc main_arg1) = m ((c : Thread nD τ).loc main_arg1) := by
  dsimp only [W5, W4, W3, W2, W1, W0, hostOps0, hostOps0_1, hostOps0_2, hostOps0_3, hostOps0_4]
  after_results
theorem arg2_at5 (c : Dev nD) : W5 m ρ c (Proc.devRef .tc main_arg2) = m ((c : Thread nD τ).loc main_arg2) := by
  dsimp only [W5, W4, W3, W2, W1, W0, hostOps0, hostOps0_1, hostOps0_2, hostOps0_3, hostOps0_4]
  after_results
theorem arg3_at5 (c : Dev nD) : W5 m ρ c (Proc.devRef .tc main_arg3) = m ((c : Thread nD τ).loc main_arg3) := by
  dsimp only [W5, W4, W3, W2, W1, W0, hostOps0, hostOps0_1, hostOps0_2, hostOps0_3, hostOps0_4]
  after_results
theorem arg4_at5 (c : Dev nD) : W5 m ρ c (Proc.devRef .tc main_arg4) = m ((c : Thread nD τ).loc main_arg4) := by
  dsimp only [W5, W4, W3, W2, W1, W0, hostOps0, hostOps0_1, hostOps0_2, hostOps0_3, hostOps0_4]
  after_results
theorem arg5_at5 (c : Dev nD) : W5 m ρ c (Proc.devRef .tc main_arg5) = m ((c : Thread nD τ).loc main_arg5) := by
  dsimp only [W5, W4, W3, W2, W1, W0, hostOps0, hostOps0_1, hostOps0_2, hostOps0_3, hostOps0_4]
  after_results
theorem arg6_at5 (c : Dev nD) : W5 m ρ c (Proc.devRef .tc main_arg6) = m ((c : Thread nD τ).loc main_arg6) := by
  dsimp only [W5, W4, W3, W2, W1, W0, hostOps0, hostOps0_1, hostOps0_2, hostOps0_3, hostOps0_4]
  after_results

end Cert.KernelIdeal.HostK

end
-- ==== Proof.HostK7.lean ====
/-
  The host operations between the first and the second region of the idealized kernel program, read at the second region's
  entry: the edge stage of the first region's output, the two norm vectors as columns, the first bias vector as a row, and
  the buffers that pass through unchanged.
-/
import proofs.«155793_j19026705121765_2_alg».proof.Proof.HostK

set_option maxRecDepth 16384

noncomputable section

namespace Cert.KernelIdeal.HostK

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem v26_at7 (c : Dev nD) : W7 m ρ c (Proc.devRef .tc main_v26)
    = aggr (W6 m ρ c (Proc.devRef .tc main_v15)) (m ((c : Thread nD τ).loc main_arg5)) (m ((c : Thread nD τ).loc main_arg6)) := by
  dsimp only [W7, hostOps1]
  after_results
  rw [W6_of_ne m ρ c main_arg5 (by decide), W6_of_ne m ρ c main_arg6 (by decide), arg5_at5, arg6_at5]
  rfl

theorem v27_at7 (c : Dev nD) : W7 m ρ c (Proc.devRef .tc main_v27)
    = shapeCast S100000x1 (norm (m ((c : Thread nD τ).loc main_arg6))) shapeCasts_S100000_S100000x1 := by
  dsimp only [W7, hostOps1]
  after_results
  rw [W6_of_ne m ρ c main_v13 (by decide), v13_at5]
  rfl

theorem v28_at7 (c : Dev nD) : W7 m ρ c (Proc.devRef .tc main_v28)
    = shapeCast S100000x1 (norm (m ((c : Thread nD τ).loc main_arg5))) shapeCasts_S100000_S100000x1 := by
  dsimp only [W7, hostOps1]
  after_results
  rw [W6_of_ne m ρ c main_v10 (by decide), v10_at5]
  rfl

theorem v29_at7 (c : Dev nD) : W7 m ρ c (Proc.devRef .tc main_v29)
    = shapeCast S1x128 (m ((c : Thread nD τ).loc main_arg2)) shapeCasts_S128_S1x128 := by
  dsimp only [W7, hostOps1]
  after_results
  rw [W6_of_ne m ρ c main_arg2 (by decide), arg2_at5]
  rfl

theorem arg3_at7 (c : Dev nD) : W7 m ρ c (Proc.devRef .tc main_arg3) = m ((c : Thread nD τ).loc main_arg3) := by
  dsimp only [W7, hostOps1]
  after_results
  rw [W6_of_ne m ρ c main_arg3 (by decide), arg3_at5]
theorem arg4_at7 (c : Dev nD) : W7 m ρ c (Proc.devRef .tc main_arg4) = m ((c : Thread nD τ).loc main_arg4) := by
  dsimp only [W7, hostOps1]
  after_results
  rw [W6_of_ne m ρ c main_arg4 (by decide), arg4_at5]
theorem arg5_at7 (c : Dev nD) : W7 m ρ c (Proc.devRef .tc main_arg5) = m ((c : Thread nD τ).loc main_arg5) := by
  dsimp only [W7, hostOps1]
  after_results
  rw [W6_of_ne m ρ c main_arg5 (by decide), arg5_at5]
theorem arg6_at7 (c : Dev nD) : W7 m ρ c (Proc.devRef .tc main_arg6) = m ((c : Thread nD τ).loc main_arg6) := by
  dsimp only [W7, hostOps1]
  after_results
  rw [W6_of_ne m ρ c main_arg6 (by decide), arg6_at5]
theorem v13_at7 (c : Dev nD) : W7 m ρ c (Proc.devRef .tc main_v13) = norm (m ((c : Thread nD τ).loc main_arg6)) := by
  dsimp only [W7, hostOps1]
  after_results
  rw [W6_of_ne m ρ c main_v13 (by decide), v13_at5]

end Cert.KernelIdeal.HostK

end
-- ==== Proof.HostK9.lean ====
/-
  The host operations between the second and the third region of the idealized kernel program, read at the third region's
  entry: the edge stage of the second region's output, the destination-norm vector as a column and the second bias vector
  as a row. The stretch is first read over an arbitrary valuation of the buffers, then at the second region's exit contents.
-/
import proofs.«155793_j19026705121765_2_alg».proof.Proof.HostK7

set_option maxRecDepth 16384

noncomputable section

namespace Cert.KernelIdeal.HostK

open Cert.KernelIdeal Cert.KernelIdeal.Gen Idealize.ShloMosaic Idealize.ShloMosaic.TcCoe Idealize.SL.Sem Idealize.ShloMosaic.StableHlo

variable {F : FTy → Type} [FloatOps F]

theorem ops2_v41 (Wv : Valuation τ sig (Elt F)) : StableHlo.after hostOps2 Wv (Proc.devRef .tc main_v41)
    = aggr (Wv (Proc.devRef .tc main_v30)) (Wv (Proc.devRef .tc main_arg5)) (Wv (Proc.devRef .tc main_arg6)) := by
  dsimp only [hostOps2]
  after_results
  rfl

theorem ops2_v42 (Wv : Valuation τ sig (Elt F)) : StableHlo.after hostOps2 Wv (Proc.devRef .tc main_v42)
    = shapeCast S100000x1 (Wv (Proc.devRef .tc main_v13)) shapeCasts_S100000_S100000x1 := by
  dsimp only [hostOps2]
  after_results
  rfl

theorem ops2_v43 (Wv : Valuation τ sig (Elt F)) : StableHlo.after hostOps2 Wv (Proc.devRef .tc main_v43)
    = shapeCast S1x128 (Wv (Proc.devRef .tc main_arg4)) shapeCasts_S128_S1x128 := by
  dsimp only [hostOps2]
  after_results
  rfl

variable (m : (ℓ : Loc nD τ sig) → Buf (Elt F) ℓ) (ρ : Dev nD → PrngReg)

theorem v41_at9 (c : Dev nD) : W9 m ρ c (Proc.devRef .tc main_v41)
    = aggr (W8 m ρ c (Proc.devRef .tc main_v30)) (m ((c : Thread nD τ).loc main_arg5)) (m ((c : Thread nD τ).loc main_arg6)) := by
  have h5 : W8 m ρ c (Proc.devRef .tc main_arg5) = m ((c : Thread nD τ).loc main_arg5) :=
    (W8_of_ne m ρ c main_arg5 (by decide)).trans (arg5_at7 m ρ c)
  have h6 : W8 m ρ c (Proc.devRef .tc main_arg6) = m ((c : Thread nD τ).loc main_arg6) :=
    (W8_of_ne m ρ c main_arg6 (by decide)).trans (arg6_at7 m ρ c)
  refine (ops2_v41 (W8 m ρ c)).trans ?_
  rw [h5, h6]

theorem v42_at9 (c : Dev nD) : W9 m ρ c (Proc.devRef .tc main_v42)
    = shapeCast S100000x1 (norm (m ((c : Thread nD τ).loc main_arg6))) shapeCasts_S100000_S100000x1 := by
  have h : W8 m ρ c (Proc.devRef .tc main_v13) = norm (m ((c : Thread nD τ).loc main_arg6)) :=
    (W8_of_ne m ρ c main_v13 (by decide)).trans (v13_at7 m ρ c)
  refine (ops2_v42 (W8 m ρ c)).trans ?_
  rw [h]

theorem v43_at9 (c : Dev nD) : W9 m ρ c (Proc.devRef .tc main_v43)
    = shapeCast S1x128 (m ((c : Thread nD τ).loc main_arg4)) shapeCasts_S128_S1x128 := by
  have h : W8 m ρ c (Proc.devRef .tc main_arg4) = m ((c : Thread nD τ).loc main_arg4) :=
    (W8_of_ne m ρ c main_arg4 (by decide)).trans (arg4_at7 m ρ c)
  refine (ops2_v43 (W8 m ρ c)).trans ?_
  rw [h]

end Cert.KernelIdeal.HostK

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.Spec.lean ====
/-
  The dense stages of a two-layer graph convolution, as functions of whole arrays on the extended reals.

  A layer scales every node's feature row by that node's source norm and multiplies by the weight matrix; the edge
  stage between (a gather along the edges' sources and a sum over the edges' destinations) is the same operation in both
  programs and is kept as it is printed. After the edge stage every row is scaled by the node's destination norm, the
  bias row is added and the result clamped below at zero. The second layer's projection is applied to the first
  layer's clamped rows.

  The norms enter as COLUMNS `[n, 1]` and the biases as ROWS `[1, d]`, the forms both programs hand to these stages.
-/
import Idealize.ShloMosaic.PureOps.Ideal
import Idealize.ShloMosaic.Lib.ValueIdx

noncomputable section

namespace Cert.Gcn

open Idealize.ShloMosaic Idealize.ShloMosaic.ValueIdx

/-- The zero every clamp compares with: the f32 zero word, never evaluated. -/
abbrev zero : EReal := Ideal.ofBits .f32 0x00000000#32

/-- Entry `(r, c)` of the first projection: `∑ k, (h r k · s r) · W k c`. -/
def proj0At (h : (⟨2, ![100000, 256]⟩ : Shape).Idx → EReal) (s : (⟨2, ![100000, 1]⟩ : Shape).Idx → EReal)
    (W : (⟨2, ![256, 128]⟩ : Shape).Idx → EReal) (r : Fin 100000) (c : Fin 128) : EReal :=
  ∑ k : Fin 256, (h (ix2 r k) * s (ix2 r (0 : Fin 1))) * W (ix2 k c)

/-- The first projection as an array. -/
def proj0 (h : (⟨2, ![100000, 256]⟩ : Shape).Idx → EReal) (s : (⟨2, ![100000, 1]⟩ : Shape).Idx → EReal)
    (W : (⟨2, ![256, 128]⟩ : Shape).Idx → EReal) : (⟨2, ![100000, 128]⟩ : Shape).Idx → EReal :=
  fun i => proj0At h s W ⟨(i 0).val, (i 0).isLt⟩ ⟨(i 1).val, (i 1).isLt⟩

/-- Entry `(r, c)` of a layer's output stage: `max (a r c · d r + b c) 0`. -/
def postAt (a : (⟨2, ![100000, 128]⟩ : Shape).Idx → EReal) (d : (⟨2, ![100000, 1]⟩ : Shape).Idx → EReal)
    (b : (⟨2, ![1, 128]⟩ : Shape).Idx → EReal) (r : Fin 100000) (c : Fin 128) : EReal :=
  max (a (ix2 r c) * d (ix2 r (0 : Fin 1)) + b (ix2 (0 : Fin 1) c)) zero

/-- A layer's output stage as an array. -/
def post (a : (⟨2, ![100000, 128]⟩ : Shape).Idx → EReal) (d : (⟨2, ![100000, 1]⟩ : Shape).Idx → EReal)
    (b : (⟨2, ![1, 128]⟩ : Shape).Idx → EReal) : (⟨2, ![100000, 128]⟩ : Shape).Idx → EReal :=
  fun i => postAt a d b ⟨(i 0).val, (i 0).isLt⟩ ⟨(i 1).val, (i 1).isLt⟩

/-- Entry `(r, c)` of the second projection, applied to the first layer's output stage:
    `∑ k, (max (a r k · d r + b k) 0 · s r) · W k c`. -/
def proj1At (a : (⟨2, ![100000, 128]⟩ : Shape).Idx → EReal) (d : (⟨2, ![100000, 1]⟩ : Shape).Idx → EReal)
    (b : (⟨2, ![1, 128]⟩ : Shape).Idx → EReal) (s : (⟨2, ![100000, 1]⟩ : Shape).Idx → EReal)
    (W : (⟨2, ![128, 128]⟩ : Shape).Idx → EReal) (r : Fin 100000) (c : Fin 128) : EReal :=
  ∑ k : Fin 128, (postAt a d b r k * s (ix2 r (0 : Fin 1))) * W (ix2 k c)

/-- The second projection as an array. -/
def proj1 (a : (⟨2, ![100000, 128]⟩ : Shape).Idx → EReal) (d : (⟨2, ![100000, 1]⟩ : Shape).Idx → EReal)
    (b : (⟨2, ![1, 128]⟩ : Shape).Idx → EReal) (s : (⟨2, ![100000, 1]⟩ : Shape).Idx → EReal)
    (W : (⟨2, ![128, 128]⟩ : Shape).Idx → EReal) : (⟨2, ![100000, 128]⟩ : Shape).Idx → EReal :=
  fun i => proj1At a d b s W ⟨(i 0).val, (i 0).isLt⟩ ⟨(i 1).val, (i 1).isLt⟩

end Cert.Gcn

end
-- ==== Proof.Pay.lean ====
/-
  The three kernel bodies' stored values, read at an entry of the block, on the extended reals.

  Each body loads whole blocks, computes one value of the output block's shape and stores it whole. Changes of float
  format are the identity here, a matrix product into the zero accumulator is the plain sum of products over the contracted
  axis, a norm column `[5000, 1]` broadcast along the rows contributes its entry of the row, and a bias row `[1, 128]`
  broadcast down the columns its entry of the column.
-/
import proofs.«155793_j19026705121765_2_alg».proof.Proof.Gen.KernelIdeal.Skeleton
import proofs.«155793_j19026705121765_2_alg».proof.Proof.LibPlainDot
import proofs.«155793_j19026705121765_2_alg».proof.Proof.LibColumns
import proofs.«155793_j19026705121765_2_alg».proof.Proof.Spec
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The two dot records' operand indices -/

theorem d0_l0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem d0_l1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem d0_r0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem d0_r1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

theorem d1_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d1_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem d1_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem d1_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The stored values at an entry -/

/-- The first body stores, at `(p, q)`, `∑ k, (x0 p k · x1 p) · x2 k q`. -/
theorem pay0_at (x0 : Vec Ideal S5000x256 .f32) (x1 : Vec Ideal S5000x1 .f32) (x2 : Vec Ideal S256x128 .f32) (p : Fin 5000) (q : Fin 128) :
    k0_pay1 (F := Ideal) x0 x1 x2 (ix2 p q) = ∑ k : Fin 256, (x0 (ix2 p k) * x1 (ix2 p (0 : Fin 1))) * x2 (ix2 k q) := by
  unfold k0_pay1
  rw [truncf_apply]
  refine (Cert.Lib.PlainDot.matmul_zero_ix2 dot_S5000x256_S256x128_S5000x128_1_0_0_1_n_n rfl rfl d0_l0 d0_l1 d0_r0 d0_r1 none _ _ p q).trans ?_
  refine Finset.sum_congr rfl fun k _ => ?_
  rw [truncf_apply, truncf_apply, mulf_apply, shapeCast_self, shapeCast_self, Cert.Lib.Columns.broadcastTo_a1_ab_apply]

/-- The third body stores, at `(p, q)`, `max (x0 p q · x1 p + x2 q) 0`. -/
theorem pay2_at (x0 : Vec Ideal S5000x128 .f32) (x1 : Vec Ideal S5000x1 .f32) (x2 : Vec Ideal S1x128 .f32) (p : Fin 5000) (q : Fin 128) :
    k2_pay1 (F := Ideal) x0 x1 x2 (ix2 p q) = max (x0 (ix2 p q) * x1 (ix2 p (0 : Fin 1)) + x2 (ix2 (0 : Fin 1) q)) Cert.Gcn.zero := by
  unfold k2_pay1
  rw [maximumf_apply, addf_apply, mulf_apply, shapeCast_self, shapeCast_self, shapeCast_self, Cert.Lib.Columns.broadcastTo_a1_ab_apply,
    broadcastTo_1b_ab_apply, broadcast_apply]
  rfl

/-- The second body stores, at `(p, q)`, `∑ k, (max (x0 p k · x1 p + x2 k) 0 · x3 p) · x4 k q`. -/
theorem pay1_at (x0 : Vec Ideal S5000x128 .f32) (x1 : Vec Ideal S5000x1 .f32) (x2 : Vec Ideal S1x128 .f32) (x3 : Vec Ideal S5000x1 .f32)
    (x4 : Vec Ideal S128x128 .f32) (p : Fin 5000) (q : Fin 128) :
    k1_pay1 (F := Ideal) x0 x1 x2 x3 x4 (ix2 p q)
      = ∑ k : Fin 128, (max (x0 (ix2 p k) * x1 (ix2 p (0 : Fin 1)) + x2 (ix2 (0 : Fin 1) k)) Cert.Gcn.zero * x3 (ix2 p (0 : Fin 1))) * x4 (ix2 k q) := by
  unfold k1_pay1
  rw [truncf_apply]
  refine (Cert.Lib.PlainDot.matmul_zero_ix2 dot_S5000x128_S128x128_S5000x128_1_0_0_1_n_n rfl rfl d1_l0 d1_l1 d1_r0 d1_r1 none _ _ p q).trans ?_
  refine Finset.sum_congr rfl fun k _ => ?_
  rw [truncf_apply, truncf_apply, mulf_apply, maximumf_apply, addf_apply, mulf_apply, shapeCast_self, shapeCast_self, shapeCast_self, shapeCast_self,
    Cert.Lib.Columns.broadcastTo_a1_ab_apply, Cert.Lib.Columns.broadcastTo_a1_ab_apply, broadcastTo_1b_ab_apply, broadcast_apply]
  rfl

end Cert.KernelIdeal.Pay

end
-- ==== Proof.Blocks0.lean ====
/-
  The first region's output array, whole.

  The region runs its body at 20 points; point `t` reads rows `5000·t … 5000·t + 4999` of the feature array and of the
  source-norm column, the whole weight matrix, and writes back rows `5000·t … 5000·t + 4999` of the output. What it writes
  is those rows of ONE function of the arrays the region finds — the scaled projection — and the 20 row blocks cover the
  output array, so the array ends as that function.
-/
import proofs.«155793_j19026705121765_2_alg».proof.Proof.Gen.KernelIdeal.Frame
import proofs.«155793_j19026705121765_2_alg».proof.Proof.Pay
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows are at block row `t`, column block 0; the weight
    window at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the scaled projection of the arrays the region finds. -/
theorem flushed_eq (c : Dev nD) (t : Fin cfg0.N) :
    (dat0 V c).flushed 3 t = ((cfg0.win 3).blk t).view.read (Elt Ideal) (Cert.Gcn.proj0 (V c main_v0) (V c main_v14) (V c main_arg1)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x128) hz]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.Gcn.proj0 (V c main_v0) (V c main_v14) (V c main_arg1) (((cfg0.win 3).blk t).view.emb (ix2 p q))
  refine (Pay.pay0_at (iblk0 V c 0 t) (iblk0 V c 1 t) (iblk0 V c 2 t) p q).trans ?_
  unfold Cert.Gcn.proj0 Cert.Gcn.proj0At
  refine Finset.sum_congr rfl fun k _ => ?_
  have hp : p.val < 5000 := p.isLt
  have hq : q.val < 128 := q.isLt
  have hk : k.val < 256 := k.isLt
  have h0 : iblk0 V c 0 t (ix2 p k) = V c main_v0 (ix2 ⟨((((cfg0.win 3).blk t).view.emb (ix2 p q)) 0).val, ((((cfg0.win 3).blk t).view.emb (ix2 p q)) 0).isLt⟩ k) := by
    show V c main_v0 (((cfg0.win 0).blk t).view.emb (ix2 p k)) = _
    refine congrArg (V c main_v0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  have h1 : iblk0 V c 1 t (ix2 p (0 : Fin 1)) = V c main_v14 (ix2 ⟨((((cfg0.win 3).blk t).view.emb (ix2 p q)) 0).val, ((((cfg0.win 3).blk t).view.emb (ix2 p q)) 0).isLt⟩ (0 : Fin 1)) := by
    show V c main_v14 (((cfg0.win 1).blk t).view.emb (ix2 p (0 : Fin 1))) = _
    refine congrArg (V c main_v14) (funext fun a => Fin.ext ?_)
    match a with
    | ⟨0, _⟩ => show win0_1.index t (0 : Fin 2) * 5000 + 1 * p.val = win0_3.index t (0 : Fin 2) * 5000 + 1 * p.val; omega
    | ⟨1, _⟩ => show win0_1.index t (1 : Fin 2) * 1 + 1 * 0 = 0; omega
  have h2 : iblk0 V c 2 t (ix2 k q) = V c main_arg1 (ix2 k ⟨((((cfg0.win 3).blk t).view.emb (ix2 p q)) 1).val, ((((cfg0.win 3).blk t).view.emb (ix2 p q)) 1).isLt⟩) := by
    show V c main_arg1 (((cfg0.win 2).blk t).view.emb (ix2 k q)) = _
    refine congrArg (V c main_arg1) (funext fun a => Fin.ext ?_)
    match a with
    | ⟨0, _⟩ => show win0_2.index t (0 : Fin 2) * 256 + 1 * k.val = k.val; omega
    | ⟨1, _⟩ => show win0_2.index t (1 : Fin 2) * 128 + 1 * q.val = win0_3.index t (1 : Fin 2) * 128 + 1 * q.val; omega
  exact congrArg₂ (· * ·) (congrArg₂ (· * ·) h0 h1) h2

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Row `r` of the output array is in the block of point `r / 5000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e00, e01, e10, e11, e20, e21, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the scaled projection of the arrays the region finds. -/
theorem final (c : Dev nD) :
    (dat0 V c).arrAt 3 cfg0.N = Cert.Gcn.proj0 (V c main_v0) (V c main_v14) (V c main_arg1) :=
  (dat0 V c).arrAt_eq_of_cover 3 _ (fun t _ => flushed_eq V c t) cover

end Cert.KernelIdeal.Blocks0

end
-- ==== Proof.Blocks1.lean ====
/-
  The second region's output array, whole.

  Point `t` of 20 reads rows `5000·t … 5000·t + 4999` of the aggregated array and of the two norm columns, the whole bias
  row and the whole weight matrix, and writes back the same rows of the output: those rows of the second projection of the
  arrays the region finds. The 20 row blocks cover the output array.
-/
import proofs.«155793_j19026705121765_2_alg».proof.Proof.Gen.KernelIdeal.Frame
import proofs.«155793_j19026705121765_2_alg».proof.Proof.Pay
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block row `t`, column block 0; the bias row and
    the weight matrix at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the second projection of the arrays the region finds. -/
theorem flushed_eq (c : Dev nD) (t : Fin cfg1.N) :
    (dat1 V c).flushed 5 t = ((cfg1.win 5).blk t).view.read (Elt Ideal)
      (Cert.Gcn.proj1 (V c main_v26) (V c main_v27) (V c main_v29) (V c main_v28) (V c main_arg3)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz,
    View.ld_unit_zero (S := S128x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Gcn.proj1 (V c main_v26) (V c main_v27) (V c main_v29) (V c main_v28) (V c main_arg3) (((cfg1.win 5).blk t).view.emb (ix2 p q))
  refine (Pay.pay1_at (iblk1 V c 0 t) (iblk1 V c 1 t) (iblk1 V c 2 t) (iblk1 V c 3 t) (iblk1 V c 4 t) p q).trans ?_
  unfold Cert.Gcn.proj1 Cert.Gcn.proj1At Cert.Gcn.postAt
  refine Finset.sum_congr rfl fun k _ => ?_
  have hp : p.val < 5000 := p.isLt
  have hq : q.val < 128 := q.isLt
  have hk : k.val < 128 := k.isLt
  have h0 : iblk1 V c 0 t (ix2 p k) = V c main_v26 (ix2 ⟨((((cfg1.win 5).blk t).view.emb (ix2 p q)) 0).val, ((((cfg1.win 5).blk t).view.emb (ix2 p q)) 0).isLt⟩ k) := by
    show V c main_v26 (((cfg1.win 0).blk t).view.emb (ix2 p k)) = _
    refine congrArg (V c main_v26) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have h1 : iblk1 V c 1 t (ix2 p (0 : Fin 1)) = V c main_v27 (ix2 ⟨((((cfg1.win 5).blk t).view.emb (ix2 p q)) 0).val, ((((cfg1.win 5).blk t).view.emb (ix2 p q)) 0).isLt⟩ (0 : Fin 1)) := by
    show V c main_v27 (((cfg1.win 1).blk t).view.emb (ix2 p (0 : Fin 1))) = _
    refine congrArg (V c main_v27) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 1 + 1 * 0 = 0; omega
  have h2 : iblk1 V c 2 t (ix2 (0 : Fin 1) k) = V c main_v29 (ix2 (0 : Fin 1) k) := by
    show V c main_v29 (((cfg1.win 2).blk t).view.emb (ix2 (0 : Fin 1) k)) = _
    refine congrArg (V c main_v29) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have h3 : iblk1 V c 3 t (ix2 p (0 : Fin 1)) = V c main_v28 (ix2 ⟨((((cfg1.win 5).blk t).view.emb (ix2 p q)) 0).val, ((((cfg1.win 5).blk t).view.emb (ix2 p q)) 0).isLt⟩ (0 : Fin 1)) := by
    show V c main_v28 (((cfg1.win 3).blk t).view.emb (ix2 p (0 : Fin 1))) = _
    refine congrArg (V c main_v28) (funext fun a => Fin.ext ?_)
    match a with
    | ⟨0, _⟩ => show win1_3.index t (0 : Fin 2) * 5000 + 1 * p.val = win1_5.index t (0 : Fin 2) * 5000 + 1 * p.val; omega
    | ⟨1, _⟩ => show win1_3.index t (1 : Fin 2) * 1 + 1 * 0 = 0; omega
  have h4 : iblk1 V c 4 t (ix2 k q) = V c main_arg3 (ix2 k ⟨((((cfg1.win 5).blk t).view.emb (ix2 p q)) 1).val, ((((cfg1.win 5).blk t).view.emb (ix2 p q)) 1).isLt⟩) := by
    show V c main_arg3 (((cfg1.win 4).blk t).view.emb (ix2 k q)) = _
    refine congrArg (V c main_arg3) (funext fun a => Fin.ext ?_)
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  exact congrArg₂ (· * ·) (congrArg₂ (· * ·) (congrArg (fun x => max x Cert.Gcn.zero) (congrArg₂ (· + ·) (congrArg₂ (· * ·) h0 h1) h2)) h3) h4

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v30).slice (win1_5.rect t)).set ↔ _
  rw [View.set_slice_whole, Rect.mem_set_unit]
  exact Iff.rfl

/-- Row `r` of the output array is in the block of point `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  obtain ⟨e00, e01, e10, e11, e20, e21, e30, e31, e40, e41, e50, e51⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the second projection of the arrays the region finds. -/
theorem final (c : Dev nD) :
    (dat1 V c).arrAt 5 cfg1.N = Cert.Gcn.proj1 (V c main_v26) (V c main_v27) (V c main_v29) (V c main_v28) (V c main_arg3) :=
  (dat1 V c).arrAt_eq_of_cover 5 _ (fun t _ => flushed_eq V c t) cover

end Cert.KernelIdeal.Blocks1

end
-- ==== Proof.Blocks2.lean ====
/-
  The third region's output array, whole.

  Point `t` of 20 reads rows `5000·t … 5000·t + 4999` of the aggregated array and of the destination-norm column and the
  whole bias row, and writes back the same rows of the output: those rows of the layer's output stage of the arrays the
  region finds. The 20 row blocks cover the output array.
-/
import proofs.«155793_j19026705121765_2_alg».proof.Proof.Gen.KernelIdeal.Frame
import proofs.«155793_j19026705121765_2_alg».proof.Proof.Pay
import Idealize.ShloMosaic.Lib.Pipeline.Value

set_option maxRecDepth 16384

noncomputable section

namespace Cert.KernelIdeal.Blocks2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block row `t`, column block 0; the bias row at
    block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the output stage of the arrays the region finds. -/
theorem flushed_eq (c : Dev nD) (t : Fin cfg2.N) :
    (dat2 V c).flushed 3 t = ((cfg2.win 3).blk t).view.read (Elt Ideal) (Cert.Gcn.post (V c main_v41) (V c main_v42) (V c main_v43)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S1x128) hz]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (ix2 p q)
    = Cert.Gcn.post (V c main_v41) (V c main_v42) (V c main_v43) (((cfg2.win 3).blk t).view.emb (ix2 p q))
  refine (Pay.pay2_at (iblk2 V c 0 t) (iblk2 V c 1 t) (iblk2 V c 2 t) p q).trans ?_
  unfold Cert.Gcn.post Cert.Gcn.postAt
  have hp : p.val < 5000 := p.isLt
  have hq : q.val < 128 := q.isLt
  have h0 : iblk2 V c 0 t (ix2 p q) = V c main_v41 (ix2 ⟨((((cfg2.win 3).blk t).view.emb (ix2 p q)) 0).val, ((((cfg2.win 3).blk t).view.emb (ix2 p q)) 0).isLt⟩
      ⟨((((cfg2.win 3).blk t).view.emb (ix2 p q)) 1).val, ((((cfg2.win 3).blk t).view.emb (ix2 p q)) 1).isLt⟩) := by
    show V c main_v41 (((cfg2.win 0).blk t).view.emb (ix2 p q)) = _
    refine congrArg (V c main_v41) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  have h1 : iblk2 V c 1 t (ix2 p (0 : Fin 1)) = V c main_v42 (ix2 ⟨((((cfg2.win 3).blk t).view.emb (ix2 p q)) 0).val, ((((cfg2.win 3).blk t).view.emb (ix2 p q)) 0).isLt⟩ (0 : Fin 1)) := by
    show V c main_v42 (((cfg2.win 1).blk t).view.emb (ix2 p (0 : Fin 1))) = _
    refine congrArg (V c main_v42) (funext fun a => Fin.ext ?_)
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  have h2 : iblk2 V c 2 t (ix2 (0 : Fin 1) q) = V c main_v43 (ix2 (0 : Fin 1) ⟨((((cfg2.win 3).blk t).view.emb (ix2 p q)) 1).val, ((((cfg2.win 3).blk t).view.emb (ix2 p q)) 1).isLt⟩) := by
    show V c main_v43 (((cfg2.win 2).blk t).view.emb (ix2 (0 : Fin 1) q)) = _
    refine congrArg (V c main_v43) (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  exact congrArg (fun x => max x Cert.Gcn.zero) (congrArg₂ (· + ·) (congrArg₂ (· * ·) h0 h1) h2)

/-- An index of the output array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v44).slice (win2_3.rect t)).set ↔ _
  rw [View.set_slice_whole, Rect.mem_set_unit]
  exact Iff.rfl

/-- Row `r` of the output array is in the block of point `r / 5000`. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 :=
    ⟨⟨(i 0).val / 5000, by show (i 0).val / 5000 < grid2.N; rw [hN]; omega⟩, rfl⟩
  obtain ⟨e00, e01, e10, e11, e20, e21, e30, e31⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region: the output stage of the arrays the region finds. -/
theorem final (c : Dev nD) :
    (dat2 V c).arrAt 3 cfg2.N = Cert.Gcn.post (V c main_v41) (V c main_v42) (V c main_v43) :=
  (dat2 V c).arrAt_eq_of_cover 3 _ (fun t _ => flushed_eq V c t) cover

end Cert.KernelIdeal.Blocks2

end
-- ==== Proof.KValue.lean ====
/-
  The idealized kernel program's result, as one term of the launch contents of its arguments.

  Read back through the three regions and the host stretches between them: the result array is the output stage of the
  second edge stage, which aggregates the second projection of the first edge stage, which aggregates the scaled projection
  of the reshaped features — the norm vectors as columns and the bias vectors as rows throughout.
-/
import proofs.«155793_j19026705121765_2_alg».proof.Proof.HostK9
import proofs.«155793_j19026705121765_2_alg».proof.Proof.Blocks0
import proofs.«155793_j19026705121765_2_alg».proof.Proof.Blocks1
import proofs.«155793_j19026705121765_2_alg».proof.Proof.Blocks2

set_option maxRecDepth 16384

noncomputable section

namespace Cert.KernelIdeal.KValue

open Cert.KernelIdeal Cert.KernelIdeal.Gen Cert.KernelIdeal.HostK Idealize.ShloMosaic Idealize.ShloMosaic.TcCoe Idealize.SL.Sem

/-- The first region's output array as a term of the arguments. -/
def stage0 (x0 : (⟨S1x100000x256, .f32⟩ : BufTy).Contents (Elt Ideal)) (x1 : (⟨S256x128, .f32⟩ : BufTy).Contents (Elt Ideal))
    (x5 : (⟨S1600000, .i32⟩ : BufTy).Contents (Elt Ideal)) : (⟨S100000x128, .bf16⟩ : BufTy).Contents (Elt Ideal) :=
  Cert.Gcn.proj0 (shapeCast S100000x256 x0 shapeCasts_S1x100000x256_S100000x256)
    (shapeCast S100000x1 (norm (F := Ideal) x5) shapeCasts_S100000_S100000x1) x1

/-- The second region's output array as a term of the arguments and of the first region's output `P`. -/
def stage1 (P : (⟨S100000x128, .bf16⟩ : BufTy).Contents (Elt Ideal)) (x2 : (⟨S128, .f32⟩ : BufTy).Contents (Elt Ideal))
    (x3 : (⟨S128x128, .f32⟩ : BufTy).Contents (Elt Ideal)) (x5 x6 : (⟨S1600000, .i32⟩ : BufTy).Contents (Elt Ideal)) :
    (⟨S100000x128, .bf16⟩ : BufTy).Contents (Elt Ideal) :=
  Cert.Gcn.proj1 (aggr (F := Ideal) P x5 x6) (shapeCast S100000x1 (norm (F := Ideal) x6) shapeCasts_S100000_S100000x1)
    (shapeCast S1x128 x2 shapeCasts_S128_S1x128) (shapeCast S100000x1 (norm (F := Ideal) x5) shapeCasts_S100000_S100000x1) x3

/-- The third region's output array as a term of the arguments and of the second region's output `P`. -/
def stage2 (P : (⟨S100000x128, .bf16⟩ : BufTy).Contents (Elt Ideal)) (x4 : (⟨S128, .f32⟩ : BufTy).Contents (Elt Ideal))
    (x5 x6 : (⟨S1600000, .i32⟩ : BufTy).Contents (Elt Ideal)) : (⟨S100000x128, .f32⟩ : BufTy).Contents (Elt Ideal) :=
  Cert.Gcn.post (aggr (F := Ideal) P x5 x6) (shapeCast S100000x1 (norm (F := Ideal) x6) shapeCasts_S100000_S100000x1)
    (shapeCast S1x128 x4 shapeCasts_S128_S1x128)

variable (m : (ℓ : Loc nD τ sig) → Buf (Elt Ideal) ℓ) (ρ : Dev nD → PrngReg)

/-- After the first region its output buffer holds the scaled projection. -/
theorem out0 (c : Dev nD) : W6 m ρ c (Proc.devRef .tc main_v15)
    = stage0 (m ((c : Thread nD τ).loc main_arg0)) (m ((c : Thread nD τ).loc main_arg1)) (m ((c : Thread nD τ).loc main_arg5)) := by
  refine (W6_arr m ρ c 3).trans ?_
  refine (Blocks0.final (V5 m ρ) c).trans ?_
  show Cert.Gcn.proj0 (W5 m ρ c (Proc.devRef .tc main_v0)) (W5 m ρ c (Proc.devRef .tc main_v14)) (W5 m ρ c (Proc.devRef .tc main_arg1)) = _
  rw [v0_at5, v14_at5, arg1_at5]
  rfl

/-- After the second region its output buffer holds the second projection of the first edge stage. -/
theorem out1 (c : Dev nD) : W8 m ρ c (Proc.devRef .tc main_v30)
    = stage1 (W6 m ρ c (Proc.devRef .tc main_v15)) (m ((c : Thread nD τ).loc main_arg2)) (m ((c : Thread nD τ).loc main_arg3))
        (m ((c : Thread nD τ).loc main_arg5)) (m ((c : Thread nD τ).loc main_arg6)) := by
  refine (W8_arr m ρ c 5).trans ?_
  refine (Blocks1.final (V7 m ρ) c).trans ?_
  show Cert.Gcn.proj1 (W7 m ρ c (Proc.devRef .tc main_v26)) (W7 m ρ c (Proc.devRef .tc main_v27)) (W7 m ρ c (Proc.devRef .tc main_v29))
    (W7 m ρ c (Proc.devRef .tc main_v28)) (W7 m ρ c (Proc.devRef .tc main_arg3)) = _
  rw [v26_at7, v27_at7, v29_at7, v28_at7, arg3_at7]
  rfl

/-- After the third region the result buffer holds the output stage of the second edge stage. -/
theorem out2 (c : Dev nD) : W10 m ρ c (Proc.devRef .tc main_v44)
    = stage2 (W8 m ρ c (Proc.devRef .tc main_v30)) (m ((c : Thread nD τ).loc main_arg4))
        (m ((c : Thread nD τ).loc main_arg5)) (m ((c : Thread nD τ).loc main_arg6)) := by
  refine (W10_arr m ρ c 3).trans ?_
  refine (Blocks2.final (V9 m ρ) c).trans ?_
  show Cert.Gcn.post (W9 m ρ c (Proc.devRef .tc main_v41)) (W9 m ρ c (Proc.devRef .tc main_v42)) (W9 m ρ c (Proc.devRef .tc main_v43)) = _
  rw [v41_at9, v42_at9, v43_at9]
  rfl

/-- The result buffer after the run, as a term of the arguments' launch contents. -/
theorem result (c : Dev nD) : W10 m ρ c (Proc.devRef .tc main_v44)
    = stage2 (stage1 (stage0 (m ((c : Thread nD τ).loc main_arg0)) (m ((c : Thread nD τ).loc main_arg1)) (m ((c : Thread nD τ).loc main_arg5)))
          (m ((c : Thread nD τ).loc main_arg2)) (m ((c : Thread nD τ).loc main_arg3)) (m ((c : Thread nD τ).loc main_arg5)) (m ((c : Thread nD τ).loc main_arg6)))
        (m ((c : Thread nD τ).loc main_arg4)) (m ((c : Thread nD τ).loc main_arg5)) (m ((c : Thread nD τ).loc main_arg6)) := by
  rw [out2, out1, out0]

end Cert.KernelIdeal.KValue

end
-- ==== Proof.RefStages.lean ====
/-
  The reference's dense stages are the specification's.

  Read one operation at a time, the reference's first product is the scaled projection of its reshaped features, its
  source-norm column and the first weight matrix; its second product the second projection of the first aggregated array, the
  destination-norm column, the first bias row, the source-norm column and the second weight matrix; and its result the
  output stage of the second aggregated array, the destination-norm column and the second bias row. Each is read at an index
  and compared entry by entry; a column broadcast along the rows is read at its row, a bias row broadcast down the columns at
  its column.
-/
import proofs.«155793_j19026705121765_2_alg».proof.Proof.Gen.ReferenceIdeal.Read
import proofs.«155793_j19026705121765_2_alg».proof.Proof.Spec

noncomputable section

namespace Cert.ReferenceIdeal.Stages

open Cert.ReferenceIdeal Cert.ReferenceIdeal.Gen Cert.ReferenceIdeal.Read Idealize.ShloMosaic Idealize.ShloMosaic.ValueIdx

/-- The first `dot_general` is the scaled projection. -/
theorem proj0_eq (x0 : (⟨S1x100000x256, .f32⟩ : BufTy).Contents (Elt Ideal)) (x1 : (⟨S256x128, .f32⟩ : BufTy).Contents (Elt Ideal))
    (x5 : (⟨S1600000, .i32⟩ : BufTy).Contents (Elt Ideal)) :
    val_main_v17 (F := Ideal) x0 x1 x5 = Cert.Gcn.proj0 (val_main_v0 (F := Ideal) x0) (val_main_v14 (F := Ideal) x5) x1 := by
  funext i
  rw [val_main_v17_apply]
  unfold Cert.Gcn.proj0 Cert.Gcn.proj0At
  refine Finset.sum_congr rfl fun k _ => ?_
  rw [val_main_v16_apply, val_main_v15_apply]
  have e0 : lidx_main_v17 i k = ix2 ⟨(i 0).val, (i 0).isLt⟩ k := funext fun a => by
    match a with
    | ⟨0, _⟩ => rfl
    | ⟨1, _⟩ => rfl
  have e1 : idx_main_v15 (lidx_main_v17 i k) = ix2 ⟨(i 0).val, (i 0).isLt⟩ (0 : Fin 1) := funext fun a => by
    match a with
    | ⟨0, _⟩ => rfl
    | ⟨1, _⟩ => rfl
  have e2 : ridx_main_v17 i k = ix2 k ⟨(i 1).val, (i 1).isLt⟩ := funext fun a => by
    match a with
    | ⟨0, _⟩ => rfl
    | ⟨1, _⟩ => rfl
  rw [e0, e1, e2]
  rfl

/-- The second `dot_general` is the second projection. -/
theorem proj1_eq (x0 : (⟨S1x100000x256, .f32⟩ : BufTy).Contents (Elt Ideal)) (x1 : (⟨S256x128, .f32⟩ : BufTy).Contents (Elt Ideal))
    (x2 : (⟨S128, .f32⟩ : BufTy).Contents (Elt Ideal)) (x3 : (⟨S128x128, .f32⟩ : BufTy).Contents (Elt Ideal))
    (x5 x6 : (⟨S1600000, .i32⟩ : BufTy).Contents (Elt Ideal)) :
    val_main_v38 (F := Ideal) x0 x1 x2 x3 x5 x6
      = Cert.Gcn.proj1 (val_main_v27 (F := Ideal) x0 x1 x5 x6) (val_main_v28 (F := Ideal) x6) (val_main_v31 (F := Ideal) x2)
          (val_main_v35 (F := Ideal) x5) x3 := by
  funext i
  rw [val_main_v38_apply]
  unfold Cert.Gcn.proj1 Cert.Gcn.proj1At Cert.Gcn.postAt
  refine Finset.sum_congr rfl fun k _ => ?_
  rw [val_main_v37_apply, val_main_v36_apply, val_main_v34_apply, val_main_v33_apply, val_main_v32_apply, val_main_v30_apply,
    val_main_v29_apply, val_main_call2_v0_apply, val_main_call2_cst_apply]
  have e0 : lidx_main_v38 i k = ix2 ⟨(i 0).val, (i 0).isLt⟩ k := funext fun a => by
    match a with
    | ⟨0, _⟩ => rfl
    | ⟨1, _⟩ => rfl
  have e1 : idx_main_v29 (lidx_main_v38 i k) = ix2 ⟨(i 0).val, (i 0).isLt⟩ (0 : Fin 1) := funext fun a => by
    match a with
    | ⟨0, _⟩ => rfl
    | ⟨1, _⟩ => rfl
  have e2 : idx_main_v32 (lidx_main_v38 i k) = ix2 (0 : Fin 1) k := funext fun a => by
    match a with
    | ⟨0, _⟩ => rfl
    | ⟨1, _⟩ => rfl
  have e3 : idx_main_v36 (lidx_main_v38 i k) = ix2 ⟨(i 0).val, (i 0).isLt⟩ (0 : Fin 1) := funext fun a => by
    match a with
    | ⟨0, _⟩ => rfl
    | ⟨1, _⟩ => rfl
  have e4 : ridx_main_v38 i k = ix2 k ⟨(i 1).val, (i 1).isLt⟩ := funext fun a => by
    match a with
    | ⟨0, _⟩ => rfl
    | ⟨1, _⟩ => rfl
  rw [e1, e2, e3, e4, e0]
  rfl

/-- The result is the output stage. -/
theorem post_eq (x0 : (⟨S1x100000x256, .f32⟩ : BufTy).Contents (Elt Ideal)) (x1 : (⟨S256x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 x6 : (⟨S1600000, .i32⟩ : BufTy).Contents (Elt Ideal)) :
    val_main_v55 (F := Ideal) x0 x1 x2 x3 x4 x5 x6
      = Cert.Gcn.post (val_main_v48 (F := Ideal) x0 x1 x2 x3 x5 x6) (val_main_v49 (F := Ideal) x6) (val_main_v52 (F := Ideal) x4) := by
  unfold val_main_v55 val_main_v54 val_main_v51
  generalize val_main_v48 (F := Ideal) x0 x1 x2 x3 x5 x6 = A
  funext i
  rw [maximumf_apply, addf_apply, mulf_apply]
  have e0 : i = ix2 ⟨(i 0).val, (i 0).isLt⟩ ⟨(i 1).val, (i 1).isLt⟩ := funext fun a => by
    match a with
    | ⟨0, _⟩ => rfl
    | ⟨1, _⟩ => rfl
  have e1 : idx_main_v50 i = ix2 ⟨(i 0).val, (i 0).isLt⟩ (0 : Fin 1) := funext fun a => by
    match a with
    | ⟨0, _⟩ => rfl
    | ⟨1, _⟩ => rfl
  have e2 : idx_main_v53 i = ix2 (0 : Fin 1) ⟨(i 1).val, (i 1).isLt⟩ := funext fun a => by
    match a with
    | ⟨0, _⟩ => rfl
    | ⟨1, _⟩ => rfl
  have hA : A i = A (ix2 ⟨(i 0).val, (i 0).isLt⟩ ⟨(i 1).val, (i 1).isLt⟩) := congrArg A e0
  have h50 : val_main_v50 (F := Ideal) x6 i = val_main_v49 (F := Ideal) x6 (ix2 ⟨(i 0).val, (i 0).isLt⟩ (0 : Fin 1)) :=
    (val_main_v50_apply x6 i).trans (congrArg (val_main_v49 (F := Ideal) x6) e1)
  have h53 : val_main_v53 (F := Ideal) x4 i = val_main_v52 (F := Ideal) x4 (ix2 (0 : Fin 1) ⟨(i 1).val, (i 1).isLt⟩) :=
    (val_main_v53_apply x4 i).trans (congrArg (val_main_v52 (F := Ideal) x4) e2)
  have hz : val_main_call3_v0 (F := Ideal) i = Cert.Gcn.zero := (val_main_call3_v0_apply i).trans rfl
  unfold Cert.Gcn.post Cert.Gcn.postAt
  exact congrArg₂ max (congrArg₂ (· + ·) (congrArg₂ (· * ·) hA h50) h53) hz

end Cert.ReferenceIdeal.Stages

end
-- ==== Proof.Cross.lean ====
/-
  The idealized kernel program's result term is the reference's.

  The two programs print the same host operations over their own copies of the shape records; operation by operation the
  terms coincide. A norm vector recast as a column by a reshape is the reference's broadcast of it along a new unit axis, a
  bias vector recast as a row likewise, and widening a gathered array is the identity on the extended reals. With these the
  kernel's three dense stages, each the specification's function of its inputs, are the reference's two products and its
  result, read one operation at a time.
-/
import proofs.«155793_j19026705121765_2_alg».proof.Proof.KValue
import proofs.«155793_j19026705121765_2_alg».proof.Proof.RefStages
import proofs.«155793_j19026705121765_2_alg».proof.Proof.LibColumns
import Idealize.ShloMosaic.Lib.ValueLayout

noncomputable section

namespace Cert.Cross

open Idealize.ShloMosaic Idealize.ShloMosaic.ValueIdx
open Cert.ReferenceIdeal.Read Cert.KernelIdeal.HostK Cert.KernelIdeal.KValue

section AnyFloat

variable {F : FTy → Type} [FloatOps F]

/-- The kernel program's norm of the sources is the reference's. -/
theorem norm_src (x : (⟨Cert.KernelIdeal.S1600000, .i32⟩ : BufTy).Contents (Elt F)) :
    Cert.KernelIdeal.HostK.norm (F := F) x = val_main_v10 (F := F) x := by
  unfold Cert.KernelIdeal.HostK.norm val_main_v10 val_main_v8 val_main_v9 val_main_call0_v1 val_main_call0_v0 val_main_cst_2 val_main_cst_3 val_main_v4 val_main_v2
    val_main_v3 val_main_v1 val_main_cst_0 val_main_cst
  rfl

/-- The kernel program's norm of the destinations is the reference's. -/
theorem norm_dst (x : (⟨Cert.KernelIdeal.S1600000, .i32⟩ : BufTy).Contents (Elt F)) :
    Cert.KernelIdeal.HostK.norm (F := F) x = val_main_v13 (F := F) x := by
  unfold Cert.KernelIdeal.HostK.norm val_main_v13 val_main_v11 val_main_v12 val_main_call1_v1 val_main_call1_v0 val_main_cst_4 val_main_cst_5 val_main_v7 val_main_v5
    val_main_v6 val_main_v1 val_main_cst_1 val_main_cst
  rfl

theorem srcIdx_a (x : (⟨Cert.KernelIdeal.S1600000, .i32⟩ : BufTy).Contents (Elt F)) : srcIdx (F := F) x = val_main_v23 (F := F) x := by
  unfold srcIdx val_main_v23 val_main_v22 val_main_v21 val_main_v20 val_main_c_6 val_main_v19 val_main_v18 val_main_c
  rfl
theorem srcIdx_b (x : (⟨Cert.KernelIdeal.S1600000, .i32⟩ : BufTy).Contents (Elt F)) : srcIdx (F := F) x = val_main_v44 (F := F) x := by
  unfold srcIdx val_main_v44 val_main_v43 val_main_v42 val_main_v41 val_main_c_9 val_main_v40 val_main_v39 val_main_c_8
  rfl
theorem dstIdx_a (x : (⟨Cert.KernelIdeal.S1600000, .i32⟩ : BufTy).Contents (Elt F)) : dstIdx (F := F) x = val_main_v26 (F := F) x := by
  unfold dstIdx val_main_v26
  rfl
theorem dstIdx_b (x : (⟨Cert.KernelIdeal.S1600000, .i32⟩ : BufTy).Contents (Elt F)) : dstIdx (F := F) x = val_main_v47 (F := F) x := by
  unfold dstIdx val_main_v47
  rfl
theorem zeros_a : zeros (F := F) = val_main_v25 (F := F) := by
  unfold zeros val_main_v25 val_main_cst_7
  rfl
theorem zeros_b : zeros (F := F) = val_main_v46 (F := F) := by
  unfold zeros val_main_v46 val_main_cst_10
  rfl

end AnyFloat

/-! ## Layout steps -/

/-- A vector recast as a column by a reshape is its broadcast along a new unit axis. -/
theorem col_eq (v : (⟨Cert.KernelIdeal.S100000, .f32⟩ : BufTy).Contents (Elt Ideal)) :
    shapeCast Cert.KernelIdeal.S100000x1 v Cert.KernelIdeal.Gen.shapeCasts_S100000_S100000x1
      = broadcastInDim Cert.ReferenceIdeal.S100000x1 ![0] Cert.ReferenceIdeal.Gen.bcast_S100000_S100000x1_0 v := by
  funext i
  obtain ⟨p, z, rfl⟩ : ∃ (p : Fin 100000) (z : Fin 1), i = ix2 p z := ⟨i 0, i 1, eq_ix2 i⟩
  rw [Cert.Lib.Columns.shapeCast_a_a1_apply]
  exact (broadcastInDim_apply _ Cert.ReferenceIdeal.Gen.bcast_S100000_S100000x1_0 v (ix2 p z) (ix1 p) (fun a => match a with
    | ⟨0, _⟩ => by show p.val = if (100000 : Nat) = 1 then 0 else p.val; rw [if_neg (by decide)])).symm

/-- A vector recast as a row by a reshape is its broadcast along a new unit axis. -/
theorem row_eq (v : (⟨Cert.KernelIdeal.S128, .f32⟩ : BufTy).Contents (Elt Ideal)) :
    shapeCast Cert.KernelIdeal.S1x128 v Cert.KernelIdeal.Gen.shapeCasts_S128_S1x128
      = broadcastInDim Cert.ReferenceIdeal.S1x128 ![1] Cert.ReferenceIdeal.Gen.bcast_S128_S1x128_1 v := by
  funext i
  obtain ⟨z, q, rfl⟩ : ∃ (z : Fin 1) (q : Fin 128), i = ix2 z q := ⟨i 0, i 1, eq_ix2 i⟩
  rw [shapeCast_a_1a_apply]
  exact (broadcastInDim_apply _ Cert.ReferenceIdeal.Gen.bcast_S128_S1x128_1 v (ix2 z q) (ix1 q) (fun a => match a with
    | ⟨0, _⟩ => by show q.val = if (128 : Nat) = 1 then 0 else q.val; rw [if_neg (by decide)])).symm

/-! ## The edge stage -/

/-- Widening a gathered array is the identity on the extended reals, and the two programs' gathers are one. -/
theorem widen_take (P : (⟨Cert.KernelIdeal.S100000x128, .bf16⟩ : BufTy).Contents (Elt Ideal))
    (I : (⟨Cert.KernelIdeal.S1600000x1, .i32⟩ : BufTy).Contents (Elt Ideal)) :
    (extf (F := Ideal) .f32
        (Host.gather Cert.KernelIdeal.gather_S100000x128_S1600000x1_S1600000x128_1_0_n_n_0_1_1128 P I : FVec Ideal Cert.KernelIdeal.S1600000x128 .bf16)
        Cert.KernelIdeal.Gen.bitsLt_bf16_f32 : FVec Ideal Cert.KernelIdeal.S1600000x128 .f32)
      = (Host.gather Cert.ReferenceIdeal.gather_S100000x128_S1600000x1_S1600000x128_1_0_n_n_0_1_1128 P I
          : FVec Ideal Cert.ReferenceIdeal.S1600000x128 .f32) := by
  funext i
  rw [extf_apply]
  rfl

/-- The kernel program's first edge stage is the reference's, on any projected array. -/
theorem aggr_a (P : (⟨Cert.KernelIdeal.S100000x128, .bf16⟩ : BufTy).Contents (Elt Ideal))
    (x5 x6 : (⟨Cert.KernelIdeal.S1600000, .i32⟩ : BufTy).Contents (Elt Ideal)) :
    aggr (F := Ideal) P x5 x6
      = Host.scatterAdd (F := Ideal) (φ := .f32) Cert.ReferenceIdeal.scatter_S100000x128_S1600000x1_S1600000x128_1_0_0_1 (val_main_v25 (F := Ideal))
          (val_main_v26 (F := Ideal) x6)
          (Host.gather Cert.ReferenceIdeal.gather_S100000x128_S1600000x1_S1600000x128_1_0_n_n_0_1_1128 P (val_main_v23 (F := Ideal) x5)
            : (⟨Cert.ReferenceIdeal.S1600000x128, .f32⟩ : BufTy).Contents (Elt Ideal)) := by
  unfold aggr sum take
  rw [srcIdx_a, dstIdx_a, zeros_a]
  refine (congrArg (Host.scatterAdd (F := Ideal) (φ := .f32) Cert.KernelIdeal.scatter_S100000x128_S1600000x1_S1600000x128_1_0_0_1 (val_main_v25 (F := Ideal))
    (val_main_v26 (F := Ideal) x6)) (widen_take P (val_main_v23 (F := Ideal) x5))).trans ?_
  rfl

/-- The kernel program's second edge stage is the reference's, on any projected array. -/
theorem aggr_b (P : (⟨Cert.KernelIdeal.S100000x128, .bf16⟩ : BufTy).Contents (Elt Ideal))
    (x5 x6 : (⟨Cert.KernelIdeal.S1600000, .i32⟩ : BufTy).Contents (Elt Ideal)) :
    aggr (F := Ideal) P x5 x6
      = Host.scatterAdd (F := Ideal) (φ := .f32) Cert.ReferenceIdeal.scatter_S100000x128_S1600000x1_S1600000x128_1_0_0_1 (val_main_v46 (F := Ideal))
          (val_main_v47 (F := Ideal) x6)
          (Host.gather Cert.ReferenceIdeal.gather_S100000x128_S1600000x1_S1600000x128_1_0_n_n_0_1_1128 P (val_main_v44 (F := Ideal) x5)
            : (⟨Cert.ReferenceIdeal.S1600000x128, .f32⟩ : BufTy).Contents (Elt Ideal)) := by
  unfold aggr sum take
  rw [srcIdx_b, dstIdx_b, zeros_b]
  refine (congrArg (Host.scatterAdd (F := Ideal) (φ := .f32) Cert.KernelIdeal.scatter_S100000x128_S1600000x1_S1600000x128_1_0_0_1 (val_main_v46 (F := Ideal))
    (val_main_v47 (F := Ideal) x6)) (widen_take P (val_main_v44 (F := Ideal) x5))).trans ?_
  rfl

/-! ## The three stages -/

variable (x0 : (⟨Cert.KernelIdeal.S1x100000x256, .f32⟩ : BufTy).Contents (Elt Ideal))
  (x1 : (⟨Cert.KernelIdeal.S256x128, .f32⟩ : BufTy).Contents (Elt Ideal))
  (x2 : (⟨Cert.KernelIdeal.S128, .f32⟩ : BufTy).Contents (Elt Ideal))
  (x3 : (⟨Cert.KernelIdeal.S128x128, .f32⟩ : BufTy).Contents (Elt Ideal))
  (x4 : (⟨Cert.KernelIdeal.S128, .f32⟩ : BufTy).Contents (Elt Ideal))
  (x5 x6 : (⟨Cert.KernelIdeal.S1600000, .i32⟩ : BufTy).Contents (Elt Ideal))

/-- The reshaped features are the reference's. -/
theorem feat0 : shapeCast Cert.KernelIdeal.S100000x256 x0 Cert.KernelIdeal.Gen.shapeCasts_S1x100000x256_S100000x256 = val_main_v0 (F := Ideal) x0 := by
  unfold val_main_v0
  rfl

/-- The source-norm column, in the reference's two spellings. -/
theorem col14 : shapeCast Cert.KernelIdeal.S100000x1 (Cert.KernelIdeal.HostK.norm (F := Ideal) x5) Cert.KernelIdeal.Gen.shapeCasts_S100000_S100000x1 = val_main_v14 (F := Ideal) x5 := by
  rw [norm_src, col_eq]
  unfold val_main_v14
  rfl
theorem col35 : shapeCast Cert.KernelIdeal.S100000x1 (Cert.KernelIdeal.HostK.norm (F := Ideal) x5) Cert.KernelIdeal.Gen.shapeCasts_S100000_S100000x1 = val_main_v35 (F := Ideal) x5 := by
  rw [norm_src, col_eq]
  unfold val_main_v35
  rfl

/-- The destination-norm column, in the reference's two spellings. -/
theorem col28 : shapeCast Cert.KernelIdeal.S100000x1 (Cert.KernelIdeal.HostK.norm (F := Ideal) x6) Cert.KernelIdeal.Gen.shapeCasts_S100000_S100000x1 = val_main_v28 (F := Ideal) x6 := by
  rw [norm_dst, col_eq]
  unfold val_main_v28
  rfl
theorem col49 : shapeCast Cert.KernelIdeal.S100000x1 (Cert.KernelIdeal.HostK.norm (F := Ideal) x6) Cert.KernelIdeal.Gen.shapeCasts_S100000_S100000x1 = val_main_v49 (F := Ideal) x6 := by
  rw [norm_dst, col_eq]
  unfold val_main_v49
  rfl

/-- The two bias rows. -/
theorem row31 : shapeCast Cert.KernelIdeal.S1x128 x2 Cert.KernelIdeal.Gen.shapeCasts_S128_S1x128 = val_main_v31 (F := Ideal) x2 := by
  rw [row_eq]
  unfold val_main_v31
  rfl
theorem row52 : shapeCast Cert.KernelIdeal.S1x128 x4 Cert.KernelIdeal.Gen.shapeCasts_S128_S1x128 = val_main_v52 (F := Ideal) x4 := by
  rw [row_eq]
  unfold val_main_v52
  rfl

/-- The first edge stage on the reference's first product is the reference's first aggregated array. -/
theorem aggr27 : aggr (F := Ideal) (val_main_v17 (F := Ideal) x0 x1 x5) x5 x6 = val_main_v27 (F := Ideal) x0 x1 x5 x6 := by
  rw [aggr_a]
  unfold val_main_v27 val_main_v24
  rfl

/-- The second edge stage on the reference's second product is the reference's second aggregated array. -/
theorem aggr48 : aggr (F := Ideal) (val_main_v38 (F := Ideal) x0 x1 x2 x3 x5 x6) x5 x6 = val_main_v48 (F := Ideal) x0 x1 x2 x3 x5 x6 := by
  rw [aggr_b]
  unfold val_main_v48 val_main_v45
  rfl

/-- The first region's output is the reference's first product. -/
theorem stage0_eq : stage0 x0 x1 x5 = val_main_v17 (F := Ideal) x0 x1 x5 := by
  unfold stage0
  rw [feat0, col14]
  exact (Cert.ReferenceIdeal.Stages.proj0_eq x0 x1 x5).symm

/-- The second region's output, on the reference's first product, is the reference's second product. -/
theorem stage1_eq : stage1 (val_main_v17 (F := Ideal) x0 x1 x5) x2 x3 x5 x6 = val_main_v38 (F := Ideal) x0 x1 x2 x3 x5 x6 := by
  unfold stage1
  rw [col28, col35, row31, aggr27]
  exact (Cert.ReferenceIdeal.Stages.proj1_eq x0 x1 x2 x3 x5 x6).symm

/-- The third region's output, on the reference's second product, is the reference's result. -/
theorem stage2_eq : stage2 (val_main_v38 (F := Ideal) x0 x1 x2 x3 x5 x6) x4 x5 x6 = val_main_v55 (F := Ideal) x0 x1 x2 x3 x4 x5 x6 := by
  unfold stage2
  rw [col49, row52, aggr48]
  exact (Cert.ReferenceIdeal.Stages.post_eq x0 x1 x2 x3 x4 x5 x6).symm

/-- The kernel program's result term is the reference's result stage. -/
theorem result_eq : stage2 (stage1 (stage0 x0 x1 x5) x2 x3 x5 x6) x4 x5 x6 = val_main_v55 (F := Ideal) x0 x1 x2 x3 x4 x5 x6 := by
  rw [stage0_eq, stage1_eq, stage2_eq]

end Cert.Cross

end
-- ==== Proof.Claims.lean ====
/-
  The five claims.

  The two kernel programs' frames are the generated ones; the reference has no kernel, and its frame is its run with the
  result dropped. The ideal pass rewrote nothing, so there is nothing to preserve. For the value claim the kernel program's
  run ends with its result buffer at a term of the launch contents of the arguments; that term is the reference's result
  stage, which is what the reference's run ends with, on memories that agree on the arguments.
-/
import proofs.«155793_j19026705121765_2_alg».proof.Defs
import proofs.«155793_j19026705121765_2_alg».proof.Proof.Gen.Kernel.Frame
import proofs.«155793_j19026705121765_2_alg».proof.Proof.Gen.KernelIdeal.Frame
import proofs.«155793_j19026705121765_2_alg».proof.Proof.Gen.ReferenceIdeal.Run
import proofs.«155793_j19026705121765_2_alg».proof.Proof.Gen.ReferenceIdeal.Read
import proofs.«155793_j19026705121765_2_alg».proof.Proof.Gen.Pre_finite_inputs
import proofs.«155793_j19026705121765_2_alg».proof.Proof.KRun
import proofs.«155793_j19026705121765_2_alg».proof.Proof.Cross

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same result array: the kernel program's result term, read back through its three
    regions, is the reference's result stage of the same arguments. -/
theorem algebraic : Cert.algebraic_KernelIdeal_ReferenceIdeal := by
  intro m ρ m' ρ' _ hagree
  refine ⟨fun c => Cert.KernelIdeal.Gen.W10 m ρ c (Proc.devRef .tc Cert.KernelIdeal.main_v44),
    Cert.KernelIdeal.KRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2.1, (hagree c).2.2.2.1, (hagree c).2.2.2.2.1,
    (hagree c).2.2.2.2.2.1, (hagree c).2.2.2.2.2.2]
  show _ = Cert.KernelIdeal.Gen.W10 m ρ c (Proc.devRef .tc Cert.KernelIdeal.main_v44)
  rw [Cert.KernelIdeal.KValue.result m ρ c]
  exact (Cert.Cross.result_eq _ _ _ _ _ _ _).symm

end Cert.Proof.Claims

end
-- ==== Proof.lean ====
/-
  A two-layer graph convolution: three tiled dense kernels among host gathers and scatter-adds, against a plain reference.

  Both programs compute, for node features `h`, weights `W1, W2`, biases `b1, b2` and an edge list with sources `src` and
  destinations `dst`: the norms `ns = max(outdeg, 1)^(-1/2)` and `nd = max(indeg, 1)^(-1/2)`; the projection
  `(h · ns) W1`; its rows gathered along `src` and summed over `dst`; `max(agg · nd + b1, 0)`; the same once more with `W2`,
  `b2`. The kernel program does the dense stages in three kernels over 20 row blocks of 5000 nodes, keeps the projections
  in a narrower float format between the kernels and widens them again, and hands the norms and biases to the kernels as
  columns and rows; the reference does each stage as one whole-array operation. On the extended reals a change of float
  format is the identity and a matrix product is the plain sum of products, whole or by row blocks, so the two results are
  equal entry by entry; no law beyond that is needed and the precondition is never opened.

  The proof: the kernel program's run with its result named (KRun); each region's output array as one function of the
  arrays it finds (Pay, Blocks0, Blocks1, Blocks2 over Spec); the host operations between the regions read at each
  region's entry (HostK, HostK7, HostK9) and chained into one result term (KValue); the reference's stages as the same
  functions (RefStages); the two terms identified (Cross); the claims (Claims).
-/
import proofs.«155793_j19026705121765_2_alg».proof.Defs
import proofs.«155793_j19026705121765_2_alg».proof.Proof.Gen.Kernel
import proofs.«155793_j19026705121765_2_alg».proof.Proof.Gen.Kernel.Skeleton
import proofs.«155793_j19026705121765_2_alg».proof.Proof.Gen.Kernel.Launch
import proofs.«155793_j19026705121765_2_alg».proof.Proof.Gen.Kernel.Points
import proofs.«155793_j19026705121765_2_alg».proof.Proof.Gen.Kernel.Frame
import proofs.«155793_j19026705121765_2_alg».proof.Proof.Gen.KernelIdeal
import proofs.«155793_j19026705121765_2_alg».proof.Proof.Gen.KernelIdeal.Skeleton
import proofs.«155793_j19026705121765_2_alg».proof.Proof.Gen.KernelIdeal.Launch
import proofs.«155793_j19026705121765_2_alg».proof.Proof.Gen.KernelIdeal.Points
import proofs.«155793_j19026705121765_2_alg».proof.Proof.Gen.KernelIdeal.Frame
import proofs.«155793_j19026705121765_2_alg».proof.Proof.Gen.ReferenceIdeal
import proofs.«155793_j19026705121765_2_alg».proof.Proof.Gen.Pre_finite_inputs
import proofs.«155793_j19026705121765_2_alg».proof.Proof.Gen.ReferenceIdeal.Run
import proofs.«155793_j19026705121765_2_alg».proof.Proof.Gen.ReferenceIdeal.Read
import proofs.«155793_j19026705121765_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
